-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x1024 : Shape := ⟨3, ![2, 4096, 1024]⟩
abbrev S2x4096 : Shape := ⟨2, ![2, 4096]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel

variable [Facts]

def fn {F : FTy → Type} [FloatOps F] (main_arg0 : FVec F S2x4096x1024 .f32) (main_arg1 : IVec S2x4096 32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  main_v3
-- ==== Kernel.lean ====
abbrev S2x4096x1024 : Shape := ⟨3, ![2, 4096, 1024]⟩
abbrev S2x4096 : Shape := ⟨2, ![2, 4096]⟩
abbrev S2x4096x4096 : Shape := ⟨3, ![2, 4096, 4096]⟩
abbrev S1x1024x4096 : Shape := ⟨3, ![1, 1024, 4096]⟩

abbrev nBuf : Space → Nat
  | .hbm => 3
  | .vmem => 2
  | .smem => 0
  | _ => 0

abbrev bufTy : (tb : Table) → Fin (tcTables nBuf tb) → BufTy
  | .hbm, ⟨0, _⟩ => ⟨S2x4096x1024, .f32⟩
  | .hbm, ⟨1, _⟩ => ⟨S2x4096, .i32⟩
  | .hbm, ⟨2, _⟩ => ⟨S2x4096x4096, .f32⟩
  | .local _ .vmem, ⟨0, _⟩ => ⟨S1x1024x4096, .f32⟩
  | .local _ .vmem, ⟨1, _⟩ => ⟨S1x1024x4096, .f32⟩
  | _, _ => ⟨S2x4096x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

class Facts₀ : Prop where
  inb_S1x1024x4096_S1x1024x4096_0_0_0 : ∀ a, (![0, 0, 0] : Fin 3 → Nat) a + S1x1024x4096.size a ≤ S1x1024x4096.size a
  h_S1x1024x4096 : 0 < S1x1024x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S2x4096x4096.size a
  hwx0_0 : ∀ i : grid0.Coords, EltTy.bits .f32 = 32 ∨ (Rect.block (s := S2x4096x4096) S1x1024x4096.size (cc0_transform_0 i) (hinb0_0 i)).WholeWords (EltTy.packing .f32)

variable [Facts₀]

abbrev win0_0 : Pipeline.Window sig grid0 :=
  Pipeline.Window.ofSpec (Memref.whole main_v0) S1x1024x4096.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2x4096x1024 : Shape := ⟨3, ![2, 4096, 1024]⟩
abbrev S2x4096 : Shape := ⟨2, ![2, 4096]⟩
abbrev S_ : Shape := ⟨0, ![]⟩
abbrev S2x4096x4096 : Shape := ⟨3, ![2, 4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096, .i32⟩
  | .hbm, ⟨2, _⟩ => ⟨S_, .f32⟩
  | .hbm, ⟨3, _⟩ => ⟨S2x4096x4096, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  bcast_S_S2x4096x4096 : S_.BroadcastsInDim S2x4096x4096 (![] : Fin 0 → Fin S2x4096x4096.rank)

variable [Facts₀]

class Facts : Prop extends Facts₀ where

variable [Facts]
-- ==== Proof.ZeroWord.lean ====
/-
  The value both programs give their second result: an array every one of whose entries is the f32 whose word is
  0x00000000. The word is the same on both sides, so it is kept as a word and never evaluated: whatever number an instance
  reads it as, the two results agree entry by entry.
-/
import Idealize.ShloMosaic.PureOps

noncomputable section

namespace Cert.ZeroFill

open Idealize.ShloMosaic

variable {F : FTy → Type} [FloatOps F]

/-- The array of shape `s` that holds, at every index, the f32 whose word is all zeros. -/
def zeros (s : Shape) : s.Idx → Elt F .f32 := fun _ => FloatOps.ofBits .f32 0x00000000#32

/-- It does not depend on the index. -/
theorem zeros_apply (s : Shape) (i : s.Idx) : zeros (F := F) s i = FloatOps.ofBits .f32 0x00000000#32 := rfl

/-- A scalar of that word splat over a block of shape `s` is the block of zeros: what the body stores at each grid point. -/
theorem splat_eq (s : Shape) : (broadcast s (Scalar.ofBits (F := F) .f32 0x00000000#32) : s.Idx → Elt F .f32) = zeros s := rfl

end Cert.ZeroFill

end
-- ==== Proof.KernelZeros.lean ====
/-
  The kernel's second result is the zero array. Its one pallas_call has no input and a grid of 2 × 4 points; at the point
  (b, s) the body stores a splat of the zero word over its whole [1, 1024, 4096] block, and the block is written back to rows
  1024·s … 1024·s + 1023 of batch b. So what every point writes back is its block of the zero array, the eight blocks
  cover [2, 4096, 4096] (the index (b, r, k) is in the block of the point (b, r / 1024)), and the array ends as the zero array.
  The first result is the first argument, which the run leaves as launched.
-/
import proofs.«134469_j44315472560501_2_alg».proof.Proof.KernelIdealFrameP
import proofs.«134469_j44315472560501_2_alg».proof.Proof.ZeroWord
import Idealize.ShloMosaic.Lib.Pipeline.Value

noncomputable section

namespace Cert.KernelIdeal.ZeroValue

open Cert.KernelIdeal Cert.KernelIdeal.Gen Cert.KernelIdeal.GenP Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one store starts at the block's origin. -/
theorem origin : (![0, 0, 0] : Fin 3 → Nat) = fun _ => 0 := funext fun a => by fin_cases a <;> rfl

/-- What the body stores is the block of zeros. -/
theorem stored_eq : k0_pay1 (F := F) = Cert.ZeroFill.zeros S1x1024x4096 := Cert.ZeroFill.splat_eq S1x1024x4096

/-- What the point `t` writes back is its block of the zero array: the body leaves the block of zeros in the staging buffer,
    and any block of the zero array is the block of zeros. -/
theorem flushed_eq (c : Dev nD) (t : Fin cfg0.N) :
    (dats m 0 c).flushed 0 t = ((cfg0.win 0).blk t).view.read (Elt F) (Cert.ZeroFill.zeros (F := F) S2x4096x4096) := by
  show (cfg0.win 0).cut (grid0.coords t) ((dats m 0 c).after 0 t) = _
  rw [after0_0]
  unfold out0_0
  rw [View.canon_unit_zero origin, stored_eq]
  funext j
  rfl

/-- An index of the array is in the block of the point `t` iff each coordinate is in the block's range on its axis. -/
theorem mem_block (t : Fin cfg0.N) (i : S2x4096x4096.Idx) :
    i ∈ ((cfg0.win 0).blk t).view.set ↔ ∀ a : Fin 3, win0_0.index t a * S1x1024x4096.size a ≤ (i a).val ∧ (i a).val < win0_0.index t a * S1x1024x4096.size a + S1x1024x4096.size a := by
  show i ∈ ((View.whole main_v0).slice (win0_0.rect t)).set ↔ _
  rw [View.set_slice_whole, Rect.mem_set_unit]
  exact Iff.rfl

/-- Every block index (b, s, 0) with b < 2 and s < 4 is some grid point's (decided over the eight points). -/
theorem point_of_block : ∀ (b : Fin 2) (s : Fin 4), ∃ t : Fin cfg0.N, win0_0.index t = ![b.val, s.val, 0] :=
  (by decide +kernel : ∀ (b : Fin 2) (s : Fin 4), ∃ t : Fin grid0.N, win0_0.index t = ![b.val, s.val, 0])

/-- The eight blocks cover the array: (b, r, k) lies in the block of the point whose block index is (b, r / 1024, 0). -/
theorem covered (i : S2x4096x4096.Idx) :
    ∃ t : Fin cfg0.N, (cfg0.win 0).flush t = true ∧ i ∈ ((cfg0.win 0).blk t).view.set := by
  have hb : (i 0).val < 2 := (i 0).isLt
  have hr : (i 1).val < 4096 := (i 1).isLt
  have hk : (i 2).val < 4096 := (i 2).isLt
  obtain ⟨t, ht⟩ := point_of_block ⟨(i 0).val, hb⟩ ⟨(i 1).val / 1024, by omega⟩
  have q0 : win0_0.index t (0 : Fin 3) = (i 0).val := congrFun ht 0
  have q1 : win0_0.index t (1 : Fin 3) = (i 1).val / 1024 := congrFun ht 1
  have q2 : win0_0.index t (2 : Fin 3) = 0 := congrFun ht 2
  refine ⟨t, flush0_0 t, ?_⟩
  rw [mem_block]
  intro a
  match a with
  | ⟨0, _⟩ => show win0_0.index t (0 : Fin 3) * 1 ≤ (i 0).val ∧ (i 0).val < win0_0.index t (0 : Fin 3) * 1 + 1; omega
  | ⟨1, _⟩ => show win0_0.index t (1 : Fin 3) * 1024 ≤ (i 1).val ∧ (i 1).val < win0_0.index t (1 : Fin 3) * 1024 + 1024; omega
  | ⟨2, _⟩ => show win0_0.index t (2 : Fin 3) * 4096 ≤ (i 2).val ∧ (i 2).val < win0_0.index t (2 : Fin 3) * 4096 + 4096; omega

/-- The output array after the run is the zero array: every point writes back its block of it, and the blocks cover it. -/
theorem final (c : Dev nD) : (dats m 0 c).arrAt 0 cfg0.N = Cert.ZeroFill.zeros (F := F) S2x4096x4096 :=
  (dats m 0 c).arrAt_eq_of_cover 0 (Cert.ZeroFill.zeros (F := F) S2x4096x4096) (fun t _ => flushed_eq m c t) covered

/-- The kernel's run, read: every weakly fair execution terminates with the output array at the zero array and both
    argument arrays as launched (no window stages an argument, and the run leaves every other buffer as the region found it). -/
theorem run : θ_run defs (onTc (τ := τ) (main (F := F))) ⟨m, fun _ => 0, ρ⟩ fun r => ∀ c : Dev nD,
      r.2.mem ((c : Thread nD τ).loc main_v0) = Cert.ZeroFill.zeros (F := F) S2x4096x4096
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 0).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.ZeroValue

end
-- ==== Proof.ReferenceZeros.lean ====
/-
  The reference's second result is the zero array: it broadcasts the rank-0 constant whose word is 0x00000000 to
  [2, 4096, 4096], so every entry reads that one scalar.
-/
import proofs.«134469_j44315472560501_2_alg».proof.Proof.Gen.ReferenceIdeal.Read
import proofs.«134469_j44315472560501_2_alg».proof.Proof.ZeroWord

noncomputable section

namespace Cert.ReferenceIdeal.RefValue

open Cert.ReferenceIdeal Cert.ReferenceIdeal.Gen Idealize.ShloMosaic

variable {F : FTy → Type} [FloatOps F]

/-- The term the reference's run states for its second result — the broadcast of the scalar constant — is the zero array:
    at an index `i` the broadcast reads the scalar at the one index of the rank-0 shape, and the scalar is the zero word. -/
theorem result_eq :
    broadcastInDim S2x4096x4096 ![] bcast_S_S2x4096x4096 (constant S_ .f32 0x00000000#32)
      = Cert.ZeroFill.zeros (F := F) S2x4096x4096 := by
  rw [Read.val_main_v0_eq]
  funext i
  rw [Read.val_main_v0_apply, Read.val_main_cst_apply, Cert.ZeroFill.zeros_apply]

end Cert.ReferenceIdeal.RefValue

end
-- ==== Proof.lean ====
/-
  The claim for a kernel that returns its first argument and an all-zero array, against a reference that does the same.

  The kernel's one pallas_call takes no input: over a grid of 2 × 4 points it fills the [1, 1024, 4096] block of the point with
  a splat of the f32 word 0x00000000, and the eight blocks tile the [2, 4096, 4096] result, so the result is the array that
  holds that word everywhere (Proof/KernelZeros.lean). The reference broadcasts the rank-0 constant of the same word to
  [2, 4096, 4096] (Proof/ReferenceZeros.lean). Both return the first argument untouched. The two second results are one and
  the same constant array (Proof/ZeroWord.lean), with the word kept as a word: no arithmetic law is used, so nothing is asked
  of the inputs and the precondition is never opened. The ideal pass rewrote no operation, so the idealization's
  conjunct is `True`.

  The three frames: each kernel program's is its frame certificate's; the reference's is its run with the results dropped.
-/
import proofs.«134469_j44315472560501_2_alg».proof.Defs
import proofs.«134469_j44315472560501_2_alg».proof.Proof.Gen.Kernel
import proofs.«134469_j44315472560501_2_alg».proof.Proof.Gen.Kernel.Skeleton
import proofs.«134469_j44315472560501_2_alg».proof.Proof.Gen.Kernel.Launch
import proofs.«134469_j44315472560501_2_alg».proof.Proof.Gen.Kernel.Points
import proofs.«134469_j44315472560501_2_alg».proof.Proof.KernelFrameP
import proofs.«134469_j44315472560501_2_alg».proof.Proof.Gen.KernelIdeal
import proofs.«134469_j44315472560501_2_alg».proof.Proof.Gen.KernelIdeal.Skeleton
import proofs.«134469_j44315472560501_2_alg».proof.Proof.Gen.KernelIdeal.Launch
import proofs.«134469_j44315472560501_2_alg».proof.Proof.Gen.KernelIdeal.Points
import proofs.«134469_j44315472560501_2_alg».proof.Proof.KernelIdealFrameP
import proofs.«134469_j44315472560501_2_alg».proof.Proof.Gen.ReferenceIdeal
import proofs.«134469_j44315472560501_2_alg».proof.Proof.Gen.Pre_finite_inputs
import proofs.«134469_j44315472560501_2_alg».proof.Proof.Gen.ReferenceIdeal.Run
import proofs.«134469_j44315472560501_2_alg».proof.Proof.Gen.ReferenceIdeal.Read
import proofs.«134469_j44315472560501_2_alg».proof.Proof.ZeroWord
import proofs.«134469_j44315472560501_2_alg».proof.Proof.KernelZeros
import proofs.«134469_j44315472560501_2_alg».proof.Proof.ReferenceZeros
import Idealize.ShloMosaic.Adequacy
import Idealize.ShloMosaic.Init

noncomputable section

namespace Cert.Proof

open Idealize.ShloMosaic Idealize.SL.Sem

/-- The kernel at the word level runs and leaves its arguments unchanged. -/
theorem frame_kernel : Cert.frame_Kernel := fun m ρ _ => Cert.Kernel.GenP.frame m ρ

/-- So does the kernel read at the ideal instance. -/
theorem frame_kernelIdeal : Cert.frame_KernelIdeal := fun m ρ _ => Cert.KernelIdeal.GenP.frame m ρ

/-- The reference runs and leaves its arguments unchanged: its run's post, with what it says of the results dropped. -/
theorem frame_referenceIdeal : Cert.frame_ReferenceIdeal := fun m ρ _ =>
  (θ_run Cert.ReferenceIdeal.defs _ _).mono (fun _ h c => ⟨(h c).1, (h c).2.2.2⟩)
    (Cert.ReferenceIdeal.Value.run (F := Ideal) m ρ)

/-- From memories that agree on the arguments both programs end with the first argument as the first result and the zero
    array as the second: the kernel by its blocks covering the array, the reference by its broadcast read at an index. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun _ => Cert.ZeroFill.zeros (F := Ideal) Cert.KernelIdeal.S2x4096x4096, ?_, ?_⟩
  · exact (θ_run Cert.KernelIdeal.defs _ _).mono
      (fun _ h c => ⟨(h c).2.1, (h c).1, (h c).2.1, (h c).2.2⟩)
      (Cert.KernelIdeal.ZeroValue.run (F := Ideal) m ρ)
  · exact (θ_run Cert.ReferenceIdeal.defs _ _).mono
      (fun _ h c => ⟨(h c).1.trans (hagree c).1, (h c).2.1.trans Cert.ReferenceIdeal.RefValue.result_eq,
        (h c).2.2.1, (h c).2.2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
